-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x256 : Shape := ⟨2, ![524288, 256]⟩
abbrev S64x256 : Shape := ⟨2, ![64, 256]⟩
abbrev S_ : Shape := ⟨0, ![]⟩

class Facts : Prop where
  bcast_S_S524288x256 : S_.BroadcastsInDim S524288x256 (![] : Fin 0 → Fin S524288x256.rank)
  reducesTo_S524288x256_S_d0_1 : S524288x256.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_

variable [Facts]

def fn {F : FTy → Type} [FloatOps F] (main_arg0 : FVec F S524288x256 .f32) (main_arg1 : FVec F S64x256 .f32) : IVec S_ 1 :=
  let main_v0 : FVec F S524288x256 .f32 := Host.absf main_arg0
  let main_cst : FVec F S_ .f32 := constant S_ .f32 0x7F800000#32
  let main_v1 : FVec F S524288x256 .f32 := broadcastInDim S524288x256 ![] bcast_S_S524288x256 main_cst
  let main_v2 : IVec S524288x256 1 := cmpf .olt main_v0 main_v1
  let main_c : IVec S_ 1 := constantI S_ 1 1#1
  let main_v3 : IVec S_ 1 := (fun x v => Host.reduce IntOp.andi x v reducesTo_S524288x256_S_d0_1 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  main_v8
-- ==== Kernel.lean ====
abbrev S524288x256 : Shape := ⟨2, ![524288, 256]⟩
abbrev S64x256 : Shape := ⟨2, ![64, 256]⟩
abbrev S256x64 : Shape := ⟨2, ![256, 64]⟩
abbrev S262144x128 : Shape := ⟨2, ![262144, 128]⟩
abbrev S8192x256 : Shape := ⟨2, ![8192, 256]⟩
abbrev S4096x128 : Shape := ⟨2, ![4096, 128]⟩
abbrev S8192 : Shape := ⟨1, ![8192]⟩
abbrev S8192x1 : Shape := ⟨2, ![8192, 1]⟩
abbrev S64 : Shape := ⟨1, ![64]⟩
abbrev S1x64 : Shape := ⟨2, ![1, 64]⟩
abbrev S8192x64 : Shape := ⟨2, ![8192, 64]⟩
abbrev S524288x64 : Shape := ⟨2, ![524288, 64]⟩

abbrev nBuf : Space → Nat
  | .hbm => 5
  | .vmem => 5
  | .smem => 0
  | _ => 0

abbrev bufTy : (tb : Table) → Fin (tcTables nBuf tb) → BufTy
  | .hbm, ⟨0, _⟩ => ⟨S524288x256, .f32⟩
  | .hbm, ⟨1, _⟩ => ⟨S64x256, .f32⟩
  | .hbm, ⟨2, _⟩ => ⟨S256x64, .f32⟩
  | .hbm, ⟨3, _⟩ => ⟨S262144x128, .f32⟩
  | .hbm, ⟨4, _⟩ => ⟨S524288x64, .f32⟩
  | .local _ .vmem, ⟨0, _⟩ => ⟨S8192x256, .f32⟩
  | .local _ .vmem, ⟨1, _⟩ => ⟨S8192x256, .f32⟩
  | .local _ .vmem, ⟨2, _⟩ => ⟨S256x64, .f32⟩
  | .local _ .vmem, ⟨3, _⟩ => ⟨S4096x128, .f32⟩
  | .local _ .vmem, ⟨4, _⟩ => ⟨S4096x128, .f32⟩
  | _, _ => ⟨S524288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x256_S256x64_1_0 : S64x256.Transposes [1, 0] S256x64
  inb_S8192x256_S8192x256_0_0 : ∀ a, (![0, 0] : Fin 2 → Nat) a + S8192x256.size a ≤ S8192x256.size a
  h_S8192x256 : 0 < S8192x256.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  reduces_S8192x256_S8192 : S8192x256.Reduces [1] S8192
  shapeCasts_S8192_S8192x1 : S8192.ShapeCasts S8192x1
  reduces_S256x64_S64 : S256x64.Reduces [0] S64
  shapeCasts_S64_S1x64 : S64.ShapeCasts S1x64
  bitsLt_bf16_f32 : FTy.bits .bf16 < FTy.bits .f32
  broadcasts_S8192x1_S8192x64 : S8192x1.Broadcasts S8192x64
  broadcasts_S1x64_S8192x64 : S1x64.Broadcasts S8192x64
  reduces_S8192x64_S8192 : S8192x64.Reduces [1] S8192
  shapeCasts_S8192x64_S4096x128 : S8192x64.ShapeCasts S4096x128
  inb_S4096x128_S4096x128_0_0 : ∀ a, (![0, 0] : Fin 2 → Nat) a + S4096x128.size a ≤ S4096x128.size a
  h_S4096x128 : 0 < S4096x128.numel
  shapeCasts_S262144x128_S524288x64 : S262144x128.ShapeCasts S524288x64
  dot_S8192x256_S256x64_S8192x64_1_0_0_1_n_n_wf : DotDims.WF S8192x256 S256x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S524288x256.size a
  hwx0_0 : ∀ i : grid0.Coords, EltTy.bits .f32 = 32 ∨ (Rect.block (s := S524288x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S524288x256 : Shape := ⟨2, ![524288, 256]⟩
abbrev S64x256 : Shape := ⟨2, ![64, 256]⟩
abbrev S_ : Shape := ⟨0, ![]⟩
abbrev S524288 : Shape := ⟨1, ![524288]⟩
abbrev S524288x1 : Shape := ⟨2, ![524288, 1]⟩
abbrev S64 : Shape := ⟨1, ![64]⟩
abbrev S1x64 : Shape := ⟨2, ![1, 64]⟩
abbrev S524288x64 : Shape := ⟨2, ![524288, 64]⟩
abbrev S256x64 : Shape := ⟨2, ![256, 64]⟩

abbrev nBuf : Space → Nat
  | .hbm => 39
  | .vmem => 0
  | .smem => 0
  | _ => 0

abbrev bufTy : (tb : Table) → Fin (tcTables nBuf tb) → BufTy
  | .hbm, ⟨0, _⟩ => ⟨S524288x256, .f32⟩
  | .hbm, ⟨1, _⟩ => ⟨S64x256, .f32⟩
  | .hbm, ⟨2, _⟩ => ⟨S524288x256, .f32⟩
  | .hbm, ⟨3, _⟩ => ⟨S_, .f32⟩
  | .hbm, ⟨4, _⟩ => ⟨S524288, .f32⟩
  | .hbm, ⟨5, _⟩ => ⟨S524288x1, .f32⟩
  | .hbm, ⟨6, _⟩ => ⟨S64x256, .f32⟩
  | .hbm, ⟨7, _⟩ => ⟨S_, .f32⟩
  | .hbm, ⟨8, _⟩ => ⟨S64, .f32⟩
  | .hbm, ⟨9, _⟩ => ⟨S1x64, .f32⟩
  | .hbm, ⟨10, _⟩ => ⟨S524288x64, .f32⟩
  | .hbm, ⟨11, _⟩ => ⟨S524288x64, .f32⟩
  | .hbm, ⟨12, _⟩ => ⟨S524288x64, .f32⟩
  | .hbm, ⟨13, _⟩ => ⟨S256x64, .f32⟩
  | .hbm, ⟨14, _⟩ => ⟨S524288x64, .f32⟩
  | .hbm, ⟨15, _⟩ => ⟨S_, .f32⟩
  | .hbm, ⟨16, _⟩ => ⟨S524288x64, .f32⟩
  | .hbm, ⟨17, _⟩ => ⟨S524288x64, .f32⟩
  | .hbm, ⟨18, _⟩ => ⟨S524288x64, .f32⟩
  | .hbm, ⟨19, _⟩ => ⟨S_, .f32⟩
  | .hbm, ⟨20, _⟩ => ⟨S524288x64, .f32⟩
  | .hbm, ⟨21, _⟩ => ⟨S524288x64, .f32⟩
  | .hbm, ⟨22, _⟩ => ⟨S_, .f32⟩
  | .hbm, ⟨23, _⟩ => ⟨S524288x64, .f32⟩
  | .hbm, ⟨24, _⟩ => ⟨S524288x64, .f32⟩
  | .hbm, ⟨25, _⟩ => ⟨S_, .f32⟩
  | .hbm, ⟨26, _⟩ => ⟨S524288x64, .f32⟩
  | .hbm, ⟨27, _⟩ => ⟨S524288x64, .f32⟩
  | .hbm, ⟨28, _⟩ => ⟨S_, .f32⟩
  | .hbm, ⟨29, _⟩ => ⟨S524288x64, .f32⟩
  | .hbm, ⟨30, _⟩ => ⟨S524288x64, .f32⟩
  | .hbm, ⟨31, _⟩ => ⟨S_, .f32⟩
  | .hbm, ⟨32, _⟩ => ⟨S524288x64, .f32⟩
  | .hbm, ⟨33, _⟩ => ⟨S524288x64, .f32⟩
  | .hbm, ⟨34, _⟩ => ⟨S_, .f32⟩
  | .hbm, ⟨35, _⟩ => ⟨S524288, .f32⟩
  | .hbm, ⟨36, _⟩ => ⟨S524288x1, .f32⟩
  | .hbm, ⟨37, _⟩ => ⟨S524288x64, .f32⟩
  | .hbm, ⟨38, _⟩ => ⟨S524288x64, .f32⟩
  | _, _ => ⟨S524288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S524288x256_S524288_d1 : S524288x256.ReducesTo [1] S524288
  h_S_ : 0 < S_.numel
  bcast_S524288_S524288x1_0 : S524288.BroadcastsInDim S524288x1 (![0] : Fin 1 → Fin S524288x1.rank)
  reducesTo_S64x256_S64_d1 : S64x256.ReducesTo [1] S64
  bcast_S64_S1x64_1 : S64.BroadcastsInDim S1x64 (![1] : Fin 1 → Fin S1x64.rank)
  bcast_S524288x1_S524288x64_0_1 : S524288x1.BroadcastsInDim S524288x64 (![0, 1] : Fin 2 → Fin S524288x64.rank)
  bcast_S1x64_S524288x64_0_1 : S1x64.BroadcastsInDim S524288x64 (![0, 1] : Fin 2 → Fin S524288x64.rank)
  transposes_S64x256_S256x64_1_0 : S64x256.Transposes [1, 0] S256x64
  bcast_S_S524288x64 : S_.BroadcastsInDim S524288x64 (![] : Fin 0 → Fin S524288x64.rank)
  reducesTo_S524288x64_S524288_d1 : S524288x64.ReducesTo [1] S524288
  dot_S524288x256_S256x64_S524288x64_1_0_0_1_n_n_wf : DotDims.WF S524288x256 S256x64 S524288x64 [1] [0] [0] [1] [] []

variable [Facts₀]

def dot_S524288x256_S256x64_S524288x64_1_0_0_1_n_n : DotDims S524288x256 S256x64 S524288x64 where
  lhsContracting := [1]
  rhsContracting := [0]
  lhsNonContracting := [0]
  rhsNonContracting := [1]
  lhsBatch := []
  rhsBatch := []
  wf := dot_S524288x256_S256x64_S524288x64_1_0_0_1_n_n_wf

class Facts : Prop extends Facts₀ where

variable [Facts]
-- ==== Proof.Soft.lean ====
/-
  The soft assignment of a point to a set of centres by a Student-t kernel with one degree of freedom, as a
  function of ONE row of the data and of the centres, over the extended reals.

  For a point `u` and centres `c 0 … c 63` in dimension 256:
    squared distance   d²(u, v) = max (|u|² + |v|² − 2·⟨u, v⟩) 0      (the expansion of |u − v|², clipped at 0),
    kernel             κ(u, v)  = 1 / (1 + d²(u, v) / 1),
    assignment         a_k(u)   = κ(u, c k) / Σ_k' κ(u, c k').
  The three literals are kept as the float words the two programs print (2.0, 1.0 and 0.0): the same word on both
  sides is never evaluated. The one law the comparison needs is that raising to the power 1 is the identity on
  EVERY extended real, the infinities included, so no finiteness of the inputs is used anywhere.
-/
import Idealize.ShloMosaic.PureOps.Ideal
import Idealize.ShloMosaic.Lib.ValueIdx
import Idealize.ShloMosaic.Lib.IdealHost

noncomputable section

open scoped BigOperators

namespace Cert.Soft

open Idealize.ShloMosaic Idealize.ShloMosaic.ValueIdx

/-- Raising to the power one (the float word of 1.0) is the identity on the extended reals: `⊥ ^ y = ⊥`,
    `⊤ ^ y = ⊤` for a positive `y`, and on a real `x ^ 1 = x`. -/
theorem pow_one (x : EReal) : Ideal.pow x (Ideal.ofBits .f32 0x3F800000#32) = x := by
  rw [Ideal.ofBits_one_f32]
  induction x using EReal.rec with
  | bot => exact Ideal.pow_bot _
  | top => rw [Ideal.pow_top, if_pos (by exact_mod_cast (zero_lt_one : (0 : ℝ) < 1))]
  | coe r =>
    rw [← EReal.coe_one, Ideal.pow_coe_coe]
    exact congrArg _ (Real.rpow_one r)

/-- The squared Euclidean norm of a vector of 256 extended reals. -/
def sqnorm (v : Fin 256 → EReal) : EReal := ∑ d : Fin 256, v d * v d

/-- The inner product of two such vectors. -/
def innerProd (u v : Fin 256 → EReal) : EReal := ∑ d : Fin 256, u d * v d

/-- The squared distance by the expansion |u|² + |v|² − 2⟨u, v⟩, clipped below at zero. -/
def dist2 (u v : Fin 256 → EReal) : EReal :=
  max (sqnorm u + sqnorm v - Ideal.ofBits .f32 0x40000000#32 * innerProd u v) (Ideal.ofBits .f32 0x00000000#32)

/-- The Student-t kernel with one degree of freedom: 1 / (1 + d² / 1). -/
def kern (u v : Fin 256 → EReal) : EReal :=
  Ideal.div (Ideal.ofBits .f32 0x3F800000#32)
    (Ideal.ofBits .f32 0x3F800000#32 + Ideal.div (dist2 u v) (Ideal.ofBits .f32 0x3F800000#32))

/-- The kernel normalised over the 64 centres. -/
def assign (u : Fin 256 → EReal) (c : Fin 64 → Fin 256 → EReal) (k : Fin 64) : EReal :=
  Ideal.div (kern u (c k)) (∑ k' : Fin 64, kern u (c k'))

/-- The whole result: entry (n, k) is the assignment of row `n` of the data to centre `k`. -/
def result (x : (⟨2, ![524288, 256]⟩ : Shape).Idx → EReal) (cl : (⟨2, ![64, 256]⟩ : Shape).Idx → EReal) :
    (⟨2, ![524288, 64]⟩ : Shape).Idx → EReal :=
  fun i => assign (fun d => x (ix2 (⟨(i 0).val, idx2_lt0 i⟩ : Fin 524288) d)) (fun k d => cl (ix2 k d))
    (⟨(i 1).val, idx2_lt1 i⟩ : Fin 64)

theorem result_ix2 (x : (⟨2, ![524288, 256]⟩ : Shape).Idx → EReal) (cl : (⟨2, ![64, 256]⟩ : Shape).Idx → EReal)
    (n : Fin 524288) (k : Fin 64) :
    result x cl (ix2 n k) = assign (fun d => x (ix2 n d)) (fun k' d => cl (ix2 k' d)) k := rfl

end Cert.Soft

end
-- ==== Proof.KernelRow.lean ====
/-
  What the kernel body stores, read at one entry.

  The body loads a block `x` of 8192 rows of the data and the transposed centres `w` ([256, 64]: column k is centre k),
  and forms, for row r and centre k,
    x2 = Σ_d x[r,d]²  (a lane sum, kept as a column and broadcast along the row),
    c2 = Σ_d w[d,k]²  (a sum down the sublanes, kept as a row and broadcast down the column),
    xc = Σ_d x[r,d]·w[d,k]  (one matrix product into a zero accumulator; the bf16 narrowing of its operands is the
         identity on extended reals),
    q[r,k] = 1 / (1 + max (x2 + c2 − 2·xc) 0 / 1),   out[r,k] = q[r,k] / Σ_k' q[r,k'].
  It stores `out` re-laid from [8192, 64] to [4096, 128]: entry (p, q) of the stored block is entry (r, k) of `out` with
  the same row-major position, 64·r + k = 128·p + q. So the stored entry is `Soft.assign` of row r against centre k.
-/
import proofs.«106345_j8005819040313_2_alg».proof.Proof.Gen.KernelIdeal.Skeleton
import proofs.«106345_j8005819040313_2_alg».proof.Proof.Soft
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.Soft

/-! ## The reductions and the keep-dims broadcasts, at an index -/

/-- A lane sum of a [8192, 256] vector: at row r, the sum over the 256 columns. -/
theorem rowSum256 (v : FVec Ideal S8192x256 .f32) (h : S8192x256.Reduces [1] S8192)
    (hacc : (0x00000000#32 : BitVec 32) = FKind.add.neutral .f32 (.inl rfl)) (r : Fin 8192) :
    multiReduction (F := Ideal) .add [1] S8192 v 0x00000000#32 h (.inl rfl) hacc (ix1 r) = ∑ d : Fin 256, v (ix2 r d) := by
  refine (Ideal.multiReduction_add_single v 0x00000000#32 h (.inl rfl) hacc (ix1 r)).trans ?_
  refine Finset.sum_congr rfl fun d _ => congrArg v ?_
  funext c
  apply Fin.ext
  match c with
  | ⟨0, _⟩ => rfl
  | ⟨1, _⟩ => rfl

/-- A lane sum of a [8192, 64] vector: at row r, the sum over the 64 columns. -/
theorem rowSum64 (v : FVec Ideal S8192x64 .f32) (h : S8192x64.Reduces [1] S8192)
    (hacc : (0x00000000#32 : BitVec 32) = FKind.add.neutral .f32 (.inl rfl)) (r : Fin 8192) :
    multiReduction (F := Ideal) .add [1] S8192 v 0x00000000#32 h (.inl rfl) hacc (ix1 r) = ∑ k : Fin 64, v (ix2 r k) := by
  refine (Ideal.multiReduction_add_single v 0x00000000#32 h (.inl rfl) hacc (ix1 r)).trans ?_
  refine Finset.sum_congr rfl fun d _ => congrArg v ?_
  funext c
  apply Fin.ext
  match c with
  | ⟨0, _⟩ => rfl
  | ⟨1, _⟩ => rfl

/-- A sum down the sublanes of a [256, 64] vector: at column k, the sum over the 256 rows. -/
theorem colSum256 (w : FVec Ideal S256x64 .f32) (h : S256x64.Reduces [0] S64)
    (hacc : (0x00000000#32 : BitVec 32) = FKind.add.neutral .f32 (.inl rfl)) (k : Fin 64) :
    multiReduction (F := Ideal) .add [0] S64 w 0x00000000#32 h (.inl rfl) hacc (ix1 k) = ∑ d : Fin 256, w (ix2 d k) := by
  refine (Ideal.multiReduction_add_single w 0x00000000#32 h (.inl rfl) hacc (ix1 k)).trans ?_
  refine Finset.sum_congr rfl fun d _ => congrArg w ?_
  funext c
  apply Fin.ext
  match c with
  | ⟨0, _⟩ => rfl
  | ⟨1, _⟩ => rfl

/-- A vector of 8192 entries kept as a column [8192, 1] and broadcast along the rows reads, at (r, k), entry r. -/
theorem columnAlongRows (u : FVec Ideal S8192 .f32) (h2 : S8192.ShapeCasts S8192x1) (h3 : S8192x1.Broadcasts S8192x64)
    (r : Fin 8192) (k : Fin 64) :
    broadcastTo S8192x64 (shapeCast S8192x1 u h2) h3 (ix2 r k) = u (ix1 r) := by
  refine (broadcastTo_apply _ h3 (ix2 r k) (ix2 r (0 : Fin 1)) ?_).trans ?_
  · intro a
    match a with
    | ⟨0, _⟩ => show r.val = if (8192 : Nat) = 1 then 0 else r.val; rw [if_neg (by decide)]
    | ⟨1, _⟩ => show 0 = if (1 : Nat) = 1 then 0 else k.val; rw [if_pos rfl]
  · exact shapeCast_apply u h2 (ix2 r (0 : Fin 1)) (ix1 r) (by
      rw [Shape.rowMajor_val_one, Shape.rowMajor_val_two]; show r.val = r.val * 1 + 0; omega)

/-- A vector of 64 entries kept as a row [1, 64] and broadcast down the columns reads, at (r, k), entry k. -/
theorem rowDownColumns (u : FVec Ideal S64 .f32) (h2 : S64.ShapeCasts S1x64) (h3 : S1x64.Broadcasts S8192x64)
    (r : Fin 8192) (k : Fin 64) :
    broadcastTo S8192x64 (shapeCast S1x64 u h2) h3 (ix2 r k) = u (ix1 k) := by
  refine (broadcastTo_apply _ h3 (ix2 r k) (ix2 (0 : Fin 1) k) ?_).trans ?_
  · intro a
    match a with
    | ⟨0, _⟩ => show 0 = if (1 : Nat) = 1 then 0 else r.val; rw [if_pos rfl]
    | ⟨1, _⟩ => show k.val = if (64 : Nat) = 1 then 0 else k.val; rw [if_neg (by decide)]
  · exact shapeCast_apply u h2 (ix2 (0 : Fin 1) k) (ix1 k) (by
      rw [Shape.rowMajor_val_one, Shape.rowMajor_val_two]; show k.val = 0 * 64 + k.val; omega)

/-! ## The matrix product, at an index -/

theorem lhs_0 (i : S8192x64.Idx) (q : dot_S8192x256_S256x64_S8192x64_1_0_0_1_n_n.contr.Idx) : (dot_S8192x256_S256x64_S8192x64_1_0_0_1_n_n.lhsIdx i q 0).val = (i 0).val := by
  unfold DotDims.lhsIdx
  rw [dif_neg (show ¬(0 : Fin S8192x256.rank) ∈ dot_S8192x256_S256x64_S8192x64_1_0_0_1_n_n.lhsBatch by decide),
    dif_pos (show (0 : Fin S8192x256.rank) ∈ dot_S8192x256_S256x64_S8192x64_1_0_0_1_n_n.lhsNonContracting by decide)]
  rfl
theorem lhs_1 (i : S8192x64.Idx) (q : dot_S8192x256_S256x64_S8192x64_1_0_0_1_n_n.contr.Idx) : (dot_S8192x256_S256x64_S8192x64_1_0_0_1_n_n.lhsIdx i q 1).val = (q ⟨0, by decide⟩).val :=
  dot_S8192x256_S256x64_S8192x64_1_0_0_1_n_n.lhsIdx_val_of_single rfl i q
theorem rhs_0 (i : S8192x64.Idx) (q : dot_S8192x256_S256x64_S8192x64_1_0_0_1_n_n.contr.Idx) : (dot_S8192x256_S256x64_S8192x64_1_0_0_1_n_n.rhsIdx i q 0).val = (q ⟨0, by decide⟩).val :=
  dot_S8192x256_S256x64_S8192x64_1_0_0_1_n_n.rhsIdx_val_of_single rfl i q
theorem rhs_1 (i : S8192x64.Idx) (q : dot_S8192x256_S256x64_S8192x64_1_0_0_1_n_n.contr.Idx) : (dot_S8192x256_S256x64_S8192x64_1_0_0_1_n_n.rhsIdx i q 1).val = (i 1).val := by
  unfold DotDims.rhsIdx
  rw [dif_neg (show ¬(1 : Fin S256x64.rank) ∈ dot_S8192x256_S256x64_S8192x64_1_0_0_1_n_n.rhsBatch by decide),
    dif_pos (show (1 : Fin S256x64.rank) ∈ dot_S8192x256_S256x64_S8192x64_1_0_0_1_n_n.rhsNonContracting by decide)]
  rfl

/-- The product of a [8192, 256] block with a [256, 64] block into a zero accumulator: at (r, k), the sum over d of the
    left operand at (r, d) times the right at (d, k). -/
theorem product_apply (a : FVec Ideal S8192x256 .bf16) (b : FVec Ideal S256x64 .bf16) (r : Fin 8192) (k : Fin 64) :
    matmul (F := Ideal) dot_S8192x256_S256x64_S8192x64_1_0_0_1_n_n none a b (constant (F := Ideal) S8192x64 .f32 0x00000000#32) (ix2 r k)
      = ∑ d : Fin 256, a (ix2 r d) * b (ix2 d k) := by
  simp only [matmul]
  rw [Ideal.matmul_constant_zero_apply, ← Equiv.sum_comp (ValueIdx.contrEquiv1 dot_S8192x256_S256x64_S8192x64_1_0_0_1_n_n 256 rfl rfl).symm]
  refine Finset.sum_congr rfl fun d _ => ?_
  have hk := ValueIdx.contrEquiv1_symm_val dot_S8192x256_S256x64_S8192x64_1_0_0_1_n_n 256 rfl rfl d
  have el : dot_S8192x256_S256x64_S8192x64_1_0_0_1_n_n.lhsIdx (ix2 r k) ((ValueIdx.contrEquiv1 dot_S8192x256_S256x64_S8192x64_1_0_0_1_n_n 256 rfl rfl).symm d) = ix2 r d :=
    funext fun c => Fin.ext (by
      match c with
      | ⟨0, _⟩ => exact lhs_0 _ _
      | ⟨1, _⟩ => exact (lhs_1 _ _).trans hk)
  have er : dot_S8192x256_S256x64_S8192x64_1_0_0_1_n_n.rhsIdx (ix2 r k) ((ValueIdx.contrEquiv1 dot_S8192x256_S256x64_S8192x64_1_0_0_1_n_n 256 rfl rfl).symm d) = ix2 d k :=
    funext fun c => Fin.ext (by
      match c with
      | ⟨0, _⟩ => exact (rhs_0 _ _).trans hk
      | ⟨1, _⟩ => exact rhs_1 _ _)
  rw [el, er]

/-! ## The kernel matrix of a block -/

/-- The Student-t kernel of every row of the block `x` against every column of `w`, as the body computes it. -/
def kernelMatrix (x : FVec Ideal S8192x256 .f32) (w : FVec Ideal S256x64 .f32) : FVec Ideal S8192x64 .f32 :=
  divf (broadcast S8192x64 (Scalar.ofBits (F := Ideal) .f32 0x3F800000#32))
    (addf (broadcast S8192x64 (Scalar.ofBits (F := Ideal) .f32 0x3F800000#32))
      (divf
        (maximumf
          (subf
            (addf
              (broadcastTo S8192x64 (shapeCast S8192x1
                (multiReduction (F := Ideal) .add [1] S8192 (mulf x x) 0x00000000#32 reduces_S8192x256_S8192 (.inl rfl) rfl)
                shapeCasts_S8192_S8192x1) broadcasts_S8192x1_S8192x64)
              (broadcastTo S8192x64 (shapeCast S1x64
                (multiReduction (F := Ideal) .add [0] S64 (mulf w w) 0x00000000#32 reduces_S256x64_S64 (.inl rfl) rfl)
                shapeCasts_S64_S1x64) broadcasts_S1x64_S8192x64))
            (mulf (broadcast S8192x64 (Scalar.ofBits (F := Ideal) .f32 0x40000000#32))
              (matmul (F := Ideal) dot_S8192x256_S256x64_S8192x64_1_0_0_1_n_n none (truncf .bf16 x bitsLt_bf16_f32) (truncf .bf16 w bitsLt_bf16_f32)
                (constant (F := Ideal) S8192x64 .f32 0x00000000#32))))
          (broadcast S8192x64 (Scalar.ofBits (F := Ideal) .f32 0x00000000#32)))
        (broadcast S8192x64 (Scalar.ofBits (F := Ideal) .f32 0x3F800000#32))))

/-- Its entry (r, k) is the kernel of row r of `x` and column k of `w`. -/
theorem kernelMatrix_apply (x : FVec Ideal S8192x256 .f32) (w : FVec Ideal S256x64 .f32) (r : Fin 8192) (k : Fin 64) :
    kernelMatrix x w (ix2 r k) = kern (fun d => x (ix2 r d)) (fun d => w (ix2 d k)) := by
  have e1 : broadcastTo S8192x64 (shapeCast S8192x1
      (multiReduction (F := Ideal) .add [1] S8192 (mulf x x) 0x00000000#32 reduces_S8192x256_S8192 (.inl rfl) rfl)
      shapeCasts_S8192_S8192x1) broadcasts_S8192x1_S8192x64 (ix2 r k) = sqnorm (fun d => x (ix2 r d)) :=
    (columnAlongRows _ _ _ r k).trans (rowSum256 _ _ _ r)
  have e2 : broadcastTo S8192x64 (shapeCast S1x64
      (multiReduction (F := Ideal) .add [0] S64 (mulf w w) 0x00000000#32 reduces_S256x64_S64 (.inl rfl) rfl)
      shapeCasts_S64_S1x64) broadcasts_S1x64_S8192x64 (ix2 r k) = sqnorm (fun d => w (ix2 d k)) :=
    (rowDownColumns _ _ _ r k).trans (colSum256 _ _ _ k)
  have e3 : matmul (F := Ideal) dot_S8192x256_S256x64_S8192x64_1_0_0_1_n_n none (truncf .bf16 x bitsLt_bf16_f32) (truncf .bf16 w bitsLt_bf16_f32)
      (constant (F := Ideal) S8192x64 .f32 0x00000000#32) (ix2 r k) = innerProd (fun d => x (ix2 r d)) (fun d => w (ix2 d k)) :=
    product_apply _ _ r k
  unfold kern dist2
  rw [← e1, ← e2, ← e3]
  rfl

/-! ## The stored block -/

/-- The body's stored value is the normalised kernel matrix, re-laid to [4096, 128]. -/
theorem stored_eq (x0 : Vec Ideal S8192x256 .f32) (x1 : Vec Ideal S256x64 .f32) :
    k0_pay1 (F := Ideal) x0 x1 = shapeCast S4096x128
      (divf (kernelMatrix x0 (shapeCast S256x64 x1 shapeCasts_S256x64_S256x64))
        (broadcastTo S8192x64 (shapeCast S8192x1
          (multiReduction (F := Ideal) .add [1] S8192 (kernelMatrix x0 (shapeCast S256x64 x1 shapeCasts_S256x64_S256x64))
            0x00000000#32 reduces_S8192x64_S8192 (.inl rfl) rfl)
          shapeCasts_S8192_S8192x1) broadcasts_S8192x1_S8192x64))
      shapeCasts_S8192x64_S4096x128 := rfl

/-- THE STORED ENTRY: at (p, q), with (r, k) the entry of the [8192, 64] layout at the same row-major position, the
    body stores the assignment of row r of the data block to centre k (column k of the transposed centres). -/
theorem stored_apply (x0 : Vec Ideal S8192x256 .f32) (x1 : Vec Ideal S256x64 .f32) (p : Fin 4096) (q : Fin 128)
    (r : Fin 8192) (k : Fin 64) (h : r.val * 64 + k.val = p.val * 128 + q.val) :
    k0_pay1 (F := Ideal) x0 x1 (ix2 p q) = assign (fun d => x0 (ix2 r d)) (fun k' d => x1 (ix2 d k')) k := by
  rw [stored_eq, shapeCast_self]
  refine (shapeCast_apply _ _ (ix2 p q) (ix2 r k)
    (by rw [Shape.rowMajor_val_two, Shape.rowMajor_val_two]; exact h)).trans ?_
  refine (divf_apply _ _ _).trans ?_
  unfold assign
  refine congr (congrArg Ideal.div (kernelMatrix_apply x0 x1 r k)) ?_
  refine (columnAlongRows _ _ _ r k).trans ?_
  refine (rowSum64 _ _ _ r).trans ?_
  exact Finset.sum_congr rfl fun k' _ => kernelMatrix_apply x0 x1 r k'

/-- The same at any index of the stored block. -/
theorem stored_entry (x0 : Vec Ideal S8192x256 .f32) (x1 : Vec Ideal S256x64 .f32) (y : S4096x128.Idx)
    (r : Fin 8192) (k : Fin 64) (h : r.val * 64 + k.val = (y 0).val * 128 + (y 1).val) :
    k0_pay1 (F := Ideal) x0 x1 y = assign (fun d => x0 (ix2 r d)) (fun k' d => x1 (ix2 d k')) k := by
  rw [eq_ix2 y]
  exact stored_apply x0 x1 _ _ r k h

end Cert.KernelIdeal.Hand

end
-- ==== Proof.KernelArray.lean ====
/-
  From what each grid point stores to the whole result.

  The grid has 64 points. Point t reads rows 8192·t … 8192·t + 8191 of the data and the whole of the transposed
  centres (the host transposes them once, before the kernel), and writes rows 4096·t … 4096·t + 4095 of a
  [262144, 128] array. Entry (P, q) of that array has the row-major position 128·P + q = 64·n + k of entry (n, k) of the
  [524288, 64] result, so the array is the result re-laid two rows to a row; the 64 blocks tile it, and the host's last
  operation re-lays it back. Hence the kernel's result is `Soft.result` of the data and the centres.
-/
import proofs.«106345_j8005819040313_2_alg».proof.Proof.Gen.KernelIdeal.Frame
import proofs.«106345_j8005819040313_2_alg».proof.Proof.KernelRow
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx Cert.Soft
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The [262144, 128] array the kernel fills: the result of the data and the centres as launched, two rows to a row. -/
def packed (c : Dev nD) : S262144x128.Idx → EReal :=
  shapeCast S262144x128
    (result (m ((c : Thread nD τ).loc main_arg0)) (m ((c : Thread nD τ).loc main_arg1))) (by decide)

/-- Its entry at an index is the result's entry with the same row-major position. -/
theorem packed_apply (c : Dev nD) (i : S262144x128.Idx) (n : Fin 524288) (k : Fin 64)
    (h : n.val * 64 + k.val = (i 0).val * 128 + (i 1).val) :
    packed m c i = result (m ((c : Thread nD τ).loc main_arg0)) (m ((c : Thread nD τ).loc main_arg1)) (ix2 n k) := by
  unfold packed
  exact shapeCast_apply _ _ i (ix2 n k) (by rw [Shape.rowMajor_val_two, Shape.rowMajor_val_two]; exact h)

/-! ## The blocks the body is given -/

/-- The printed index maps, decided over the 64 points: the data's and the output's block row is the point's number,
    the centres' block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of point t's data block is row 8192·t + r of the data. -/
theorem dataBlock_apply (c : Dev nD) (t : Fin cfg0.N) (r : Fin 8192) (d : Fin 256) (n : Fin 524288)
    (hn : n.val = t.val * 8192 + r.val) :
    (iblk m c 0 t : Vec Ideal S8192x256 .f32) (ix2 r d) = m ((c : Thread nD τ).loc main_arg0) (ix2 n d) := by
  obtain ⟨e0, e1, -⟩ := idx_facts t
  show V m c main_arg0 (((cfg0.win 0).blk t).view.emb (ix2 r d)) = _
  rw [V_main_arg0]
  refine congrArg _ ?_
  funext a
  apply Fin.ext
  match a with
  | ⟨0, _⟩ => show win0_0.index t (0 : Fin 2) * 8192 + 1 * r.val = n.val; rw [e0, hn]; omega
  | ⟨1, _⟩ => show win0_0.index t (1 : Fin 2) * 256 + 1 * d.val = d.val; rw [e1]; omega

/-- The host transposes the centres before the kernel: the region finds the [256, 64] transpose. -/
theorem hostTranspose (c : Dev nD) :
    (V m c main_v0 : S256x64.Idx → EReal)
      = transpose S256x64 [1, 0] (m ((c : Thread nD τ).loc main_arg1)) transposes_S64x256_S256x64_1_0 := by
  show StableHlo.after hostOps0 (fun b => m (c, b)) (Proc.devRef .tc main_v0) = _
  after_results

/-- Every point's centres block is the whole transpose: entry (d, k) is entry (k, d) of the centres. -/
theorem centresBlock_apply (c : Dev nD) (t : Fin cfg0.N) (d : Fin 256) (k : Fin 64) :
    (iblk m c 1 t : Vec Ideal S256x64 .f32) (ix2 d k) = m ((c : Thread nD τ).loc main_arg1) (ix2 k d) := by
  obtain ⟨-, -, e0, e1, -⟩ := idx_facts t
  show V m c main_v0 (((cfg0.win 1).blk t).view.emb (ix2 d k)) = _
  have hemb : ((cfg0.win 1).blk t).view.emb (ix2 d k) = ix2 d k := by
    funext a
    apply Fin.ext
    match a with
    | ⟨0, _⟩ => show win0_1.index t (0 : Fin 2) * 256 + 1 * d.val = d.val; rw [e0]; omega
    | ⟨1, _⟩ => show win0_1.index t (1 : Fin 2) * 64 + 1 * k.val = k.val; rw [e1]; omega
  rw [hemb, hostTranspose]
  exact transpose_apply [1, 0] _ _ (ix2 d k) (ix2 k d) (fun b => match b with
    | ⟨0, _⟩ => rfl
    | ⟨1, _⟩ => rfl)

/-! ## What a point writes back -/

/-- WHAT POINT t WRITES BACK is block t of `packed`. -/
theorem flushed_eq (c : Dev nD) (t : Fin cfg0.N) :
    (dats m 0 c).flushed 2 t = ((cfg0.win 2).blk t).view.read (Elt Ideal) (packed m c) := by
  show (cfg0.win 2).cut (grid0.coords t) ((dats m 0 c).after 2 t) = _
  rw [after0_2]
  unfold out0_2
  rw [View.canon_unit_zero hz]
  simp only [View.ld_unit_zero (S := S8192x256) hz, View.ld_unit_zero (S := S256x64) hz]
  obtain ⟨-, -, -, -, e0, e1⟩ := idx_facts t
  have hN : cfg0.N = 64 := N_0
  have ht : t.val < 64 := hN ▸ t.isLt
  funext j
  have hj0 : (j 0).val < 4096 := (j 0).isLt
  have hj1 : (j 1).val < 128 := (j 1).isLt
  show k0_pay1 (iblk m c 0 t) (iblk m c 1 t) j = packed m c (((cfg0.win 2).blk t).view.emb j)
  obtain ⟨r, hr⟩ : ∃ r : Fin 8192, r.val = 2 * (j 0).val + (j 1).val / 64 := ⟨⟨2 * (j 0).val + (j 1).val / 64, by omega⟩, rfl⟩
  obtain ⟨k, hk⟩ : ∃ k : Fin 64, k.val = (j 1).val % 64 := ⟨⟨(j 1).val % 64, by omega⟩, rfl⟩
  obtain ⟨n, hn⟩ : ∃ n : Fin 524288, n.val = t.val * 8192 + r.val := ⟨⟨t.val * 8192 + r.val, by omega⟩, rfl⟩
  have hL := stored_entry (iblk m c 0 t) (iblk m c 1 t) j r k (by omega)
  have hR : packed m c (((cfg0.win 2).blk t).view.emb j)
      = assign (fun d => m ((c : Thread nD τ).loc main_arg0) (ix2 n d))
          (fun k' d => m ((c : Thread nD τ).loc main_arg1) (ix2 k' d)) k :=
    (packed_apply m c _ n k (by
      show n.val * 64 + k.val = (win0_2.index t (0 : Fin 2) * 4096 + 1 * (j 0).val) * 128
        + (win0_2.index t (1 : Fin 2) * 128 + 1 * (j 1).val)
      rw [e0, e1]; omega)).trans (result_ix2 _ _ n k)
  have hx : (fun d => (iblk m c 0 t : Vec Ideal S8192x256 .f32) (ix2 r d))
      = fun d => m ((c : Thread nD τ).loc main_arg0) (ix2 n d) :=
    funext fun d => dataBlock_apply m c t r d n hn
  have hc : (fun k' d => (iblk m c 1 t : Vec Ideal S256x64 .f32) (ix2 d k'))
      = fun k' d => m ((c : Thread nD τ).loc main_arg1) (ix2 k' d) :=
    funext fun k' => funext fun d => centresBlock_apply m c t d k'
  rw [hL, hR, hx, hc]

/-! ## The blocks tile the array -/

/-- An index of the array is in point t's block iff each coordinate is in the block's range on its axis. -/
theorem mem_blk (t : Fin cfg0.N) (i : S262144x128.Idx) :
    i ∈ ((cfg0.win 2).blk t).view.set ↔ ∀ a : Fin 2, win0_2.index t a * S4096x128.size a ≤ (i a).val
      ∧ (i a).val < win0_2.index t a * S4096x128.size a + S4096x128.size a := by
  show i ∈ ((View.whole main_v1).slice (win0_2.rect t)).set ↔ _
  rw [View.set_slice_whole, Rect.mem_set_unit]
  exact Iff.rfl

/-- Row P of the array is in the block of point P / 4096. -/
theorem covered (i : S262144x128.Idx) :
    ∃ t : Fin cfg0.N, (cfg0.win 2).flush t = true ∧ i ∈ ((cfg0.win 2).blk t).view.set := by
  have hi0 : (i 0).val < 262144 := (i 0).isLt
  have hi1 : (i 1).val < 128 := (i 1).isLt
  have hN : cfg0.N = 64 := N_0
  obtain ⟨t, ht⟩ : ∃ t : Fin cfg0.N, t.val = (i 0).val / 4096 := ⟨⟨(i 0).val / 4096, by rw [hN]; omega⟩, rfl⟩
  obtain ⟨-, -, -, -, e0, e1⟩ := idx_facts t
  refine ⟨t, flush0_2 t, ?_⟩
  rw [mem_blk]
  intro a
  match a with
  | ⟨0, _⟩ =>
    show win0_2.index t (0 : Fin 2) * 4096 ≤ (i 0).val ∧ (i 0).val < win0_2.index t (0 : Fin 2) * 4096 + 4096
    rw [e0, ht]; omega
  | ⟨1, _⟩ =>
    show win0_2.index t (1 : Fin 2) * 128 ≤ (i 1).val ∧ (i 1).val < win0_2.index t (1 : Fin 2) * 128 + 128
    rw [e1]; omega

/-- THE ARRAY after the region is `packed`. -/
theorem final (c : Dev nD) : (dats m 0 c).arrAt 2 cfg0.N = packed m c :=
  (dats m 0 c).arrAt_eq_of_cover 2 (packed m c) (fun t _ => flushed_eq m c t) covered

/-! ## The host's last operation, and the run -/

/-- The host re-lays the array to [524288, 64]: the result. -/
theorem result_after (c : Dev nD) :
    Pipeline.afterTail₀ cfgs (dats m) 0 (V0 m) [hostOps1] c main_v2
      = result (m ((c : Thread nD τ).loc main_arg0)) (m ((c : Thread nD τ).loc main_arg1)) := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v1) = packed m c :=
    (Pipeline.withArrays_arr spec0 launch0.win.arr_inj c _ _ 2).trans (final m c)
  rw [e]
  funext i
  show shapeCast S524288x64 (packed m c) shapeCasts_S262144x128_S524288x64 i = _
  unfold packed
  rw [shapeCast_shapeCast]

/-- THE RUN, READ: every weakly fair execution of the kernel's program terminates with the result buffer at
    `Soft.result` of the data and the centres as launched, and the two arguments unchanged. -/
theorem run : θ_run defs (onTc (τ := τ) (main (F := Ideal))) ⟨m, fun _ => 0, ρ⟩ fun r => ∀ c : Dev nD,
      r.2.mem ((c.tc : Thread nD τ).loc main_v2)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (result_after m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.Hand

end
-- ==== Proof.RefRow.lean ====
/-
  The reference, read index by index, is the soft assignment of each row to the centres.

  At entry (n, k) the reference computes, over the extended reals,
    x2 = 0 + Σ_d x[n,d]²,   c2 = 0 + Σ_d c[k,d]²,   xc = Σ_d x[n,d]·cᵀ[d,k],
    q  = (1 / (1 + max (x2 + c2 − 2·xc) 0 / 1)) ^ 1,   result = q / (0 + Σ_k' q[n,k']).
  Three things separate this from `Soft.assign`: the initial value 0 of each host sum (`0 + s = s`), the transpose
  of the centres read back (cᵀ[d,k] = c[k,d]), and the power 1 (`Soft.pow_one`, the identity on every extended real).
-/
import proofs.«106345_j8005819040313_2_alg».proof.Proof.Gen.ReferenceIdeal.Read
import proofs.«106345_j8005819040313_2_alg».proof.Proof.Soft

noncomputable section

open scoped BigOperators

namespace Cert.ReferenceIdeal.Hand

open Cert.ReferenceIdeal Cert.ReferenceIdeal.Read Idealize.ShloMosaic Idealize.ShloMosaic.ValueIdx Cert.Soft

variable (x0 : (⟨S524288x256, .f32⟩ : BufTy).Contents (Elt Ideal)) (x1 : (⟨S64x256, .f32⟩ : BufTy).Contents (Elt Ideal))

/-! ## Where each stage reads its operand: the composed index maps, coordinate by coordinate -/

theorem rowIdx (n : Fin 524288) (k : Fin 64) (d : Fin 256) :
    idx_main_v1 (idx_main_v2 (idx_main_v6 (ix2 n k))) d = ix2 n d :=
  funext fun a => Fin.ext (by match a with | ⟨0, _⟩ => rfl | ⟨1, _⟩ => rfl)

theorem centreIdx (n : Fin 524288) (k : Fin 64) (d : Fin 256) :
    idx_main_v4 (idx_main_v5 (idx_main_v7 (ix2 n k))) d = ix2 k d :=
  funext fun a => Fin.ext (by match a with | ⟨0, _⟩ => rfl | ⟨1, _⟩ => rfl)

theorem leftIdx (n : Fin 524288) (k : Fin 64) (d : Fin 256) : lidx_main_v10 (ix2 n k) d = ix2 n d :=
  funext fun a => Fin.ext (by match a with | ⟨0, _⟩ => rfl | ⟨1, _⟩ => rfl)

theorem rightIdx (n : Fin 524288) (k : Fin 64) (d : Fin 256) :
    idx_main_v9 (ridx_main_v10 (ix2 n k) d) = ix2 k d :=
  funext fun a => Fin.ext (by match a with | ⟨0, _⟩ => rfl | ⟨1, _⟩ => rfl)

theorem sumIdx (n : Fin 524288) (k k' : Fin 64) :
    idx_main_v24 (idx_main_v25 (idx_main_v26 (ix2 n k))) k' = ix2 n k' :=
  funext fun a => Fin.ext (by match a with | ⟨0, _⟩ => rfl | ⟨1, _⟩ => rfl)

/-! ## The stages -/

/-- The squared norm of row `n` of the data, as the reference sums it (from the initial value 0). -/
theorem rowNorm (n : Fin 524288) (k : Fin 64) :
    val_main_v6 (F := Ideal) x0 (ix2 n k) = sqnorm (fun d => x0 (ix2 n d)) := by
  rw [val_main_v6_apply, val_main_v2_apply, val_main_v1_apply, val_main_cst_apply]
  show Ideal.ofBits .f32 0x00000000#32 + _ = _
  rw [Ideal.ofBits_zero_f32, zero_add]
  unfold sqnorm
  refine Finset.sum_congr rfl fun d _ => ?_
  rw [val_main_v0_apply, rowIdx]
  rfl

/-- The squared norm of centre `k`, as the reference sums it. -/
theorem centreNorm (n : Fin 524288) (k : Fin 64) :
    val_main_v7 (F := Ideal) x1 (ix2 n k) = sqnorm (fun d => x1 (ix2 k d)) := by
  rw [val_main_v7_apply, val_main_v5_apply, val_main_v4_apply, val_main_cst_0_apply]
  show Ideal.ofBits .f32 0x00000000#32 + _ = _
  rw [Ideal.ofBits_zero_f32, zero_add]
  unfold sqnorm
  refine Finset.sum_congr rfl fun d _ => ?_
  rw [val_main_v3_apply, centreIdx]
  rfl

/-- The matrix product against the transposed centres is the inner product of row `n` with centre `k`. -/
theorem rowDotCentre (n : Fin 524288) (k : Fin 64) :
    val_main_v10 (F := Ideal) x0 x1 (ix2 n k) = innerProd (fun d => x0 (ix2 n d)) (fun d => x1 (ix2 k d)) := by
  rw [val_main_v10_apply]
  unfold innerProd
  refine Finset.sum_congr rfl fun d _ => ?_
  rw [val_main_v9_apply, leftIdx, rightIdx]

/-- The Student-t kernel of row `n` and centre `k`, before the reference raises it to the power 1. -/
theorem kernel_apply (n : Fin 524288) (k : Fin 64) :
    val_main_v21 (F := Ideal) x0 x1 (ix2 n k) = kern (fun d => x0 (ix2 n d)) (fun d => x1 (ix2 k d)) := by
  rw [val_main_v21_apply, val_main_v20_apply, val_main_cst_5_apply, val_main_v19_apply, val_main_v18_apply,
    val_main_cst_4_apply, val_main_v17_apply, val_main_v16_apply, val_main_cst_3_apply, val_main_v15_apply,
    val_main_v14_apply, val_main_cst_2_apply, val_main_v13_apply, val_main_v12_apply, val_main_v11_apply,
    val_main_cst_1_apply, val_main_v8_apply, rowNorm, centreNorm, rowDotCentre]
  rfl

/-- Raised to the power 1 it is the same number. -/
theorem powered_apply (n : Fin 524288) (k : Fin 64) :
    val_main_v23 (F := Ideal) x0 x1 (ix2 n k) = kern (fun d => x0 (ix2 n d)) (fun d => x1 (ix2 k d)) := by
  rw [val_main_v23_apply, val_main_v22_apply, val_main_cst_6_apply, kernel_apply]
  exact pow_one _

/-- The normaliser of row `n`: the sum of its 64 kernels (from the initial value 0). -/
theorem normaliser_apply (n : Fin 524288) (k : Fin 64) :
    val_main_v26 (F := Ideal) x0 x1 (ix2 n k) = ∑ k' : Fin 64, kern (fun d => x0 (ix2 n d)) (fun d => x1 (ix2 k' d)) := by
  rw [val_main_v26_apply, val_main_v25_apply, val_main_v24_apply, val_main_cst_7_apply]
  show Ideal.ofBits .f32 0x00000000#32 + _ = _
  rw [Ideal.ofBits_zero_f32, zero_add]
  refine Finset.sum_congr rfl fun k' _ => ?_
  rw [sumIdx]
  exact powered_apply x0 x1 n k'

/-- Entry (n, k) of the reference's last stage is the assignment of row `n` to centre `k`. -/
theorem ref_apply (n : Fin 524288) (k : Fin 64) :
    val_main_v27 (F := Ideal) x0 x1 (ix2 n k) = result x0 x1 (ix2 n k) := by
  rw [result_ix2, val_main_v27_apply, powered_apply, normaliser_apply]
  rfl

/-- THE REFERENCE IS THE SOFT ASSIGNMENT: its last stage is `Soft.result` of the two arguments. -/
theorem ref_eq_result : val_main_v27 (F := Ideal) x0 x1 = result x0 x1 := by
  funext i
  rw [eq_ix2 i]
  exact ref_apply x0 x1 _ _

end Cert.ReferenceIdeal.Hand

end
-- ==== Proof.lean ====
/-
  The kernel computes the soft assignment of 524288 points to 64 centres by a Student-t kernel with one degree of
  freedom, and so does the reference; over the extended reals they are the same function of the two arguments.

  Both form, for row n of the data and centre k, the clipped squared distance max (|x_n|² + |c_k|² − 2⟨x_n, c_k⟩) 0, the
  kernel q = 1 / (1 + d² / 1), and q / Σ_k' q (`Soft.assign`, Proof/Soft.lean). They differ in four ways, none of which
  changes a value:
    · the kernel narrows the matrix product's operands to bf16, which on extended reals is the identity;
    · the kernel works on blocks of 8192 rows and stores each block's [8192, 64] result re-laid to [4096, 128], and the
      host re-lays the whole [262144, 128] array back: two re-layouts that preserve row-major position
      (Proof/KernelRow.lean for one entry of a block, Proof/KernelArray.lean for the blocks tiling the array);
    · the reference starts each sum from the initial value 0, and `0 + s = s`;
    · the reference raises q to the power (α + 1) / 2 = 1, and `x ^ 1 = x` on EVERY extended real, the infinities included
      (`Soft.pow_one`; Proof/RefRow.lean reads the reference stage by stage).
  No step uses that the inputs are finite, so the precondition is never opened. The three frames are the generated ones
  (the reference's is its generated run with the result dropped). The idealized kernel is the kernel's own text read
  over the extended reals: the idealization rewrote no operation (the bf16 narrowing stays in the text, read there as
  the identity), so the statement of `preserves` is `True`.
-/
import proofs.«106345_j8005819040313_2_alg».proof.Defs
import proofs.«106345_j8005819040313_2_alg».proof.Proof.Gen.Kernel
import proofs.«106345_j8005819040313_2_alg».proof.Proof.Gen.Kernel.Skeleton
import proofs.«106345_j8005819040313_2_alg».proof.Proof.Gen.Kernel.Launch
import proofs.«106345_j8005819040313_2_alg».proof.Proof.Gen.Kernel.Points
import proofs.«106345_j8005819040313_2_alg».proof.Proof.Gen.Kernel.Frame
import proofs.«106345_j8005819040313_2_alg».proof.Proof.Gen.KernelIdeal
import proofs.«106345_j8005819040313_2_alg».proof.Proof.Gen.KernelIdeal.Skeleton
import proofs.«106345_j8005819040313_2_alg».proof.Proof.Gen.KernelIdeal.Launch
import proofs.«106345_j8005819040313_2_alg».proof.Proof.Gen.KernelIdeal.Points
import proofs.«106345_j8005819040313_2_alg».proof.Proof.Gen.KernelIdeal.Frame
import proofs.«106345_j8005819040313_2_alg».proof.Proof.Gen.ReferenceIdeal
import proofs.«106345_j8005819040313_2_alg».proof.Proof.Gen.Pre_finite_inputs
import proofs.«106345_j8005819040313_2_alg».proof.Proof.Gen.ReferenceIdeal.Run
import proofs.«106345_j8005819040313_2_alg».proof.Proof.Gen.ReferenceIdeal.Read
import proofs.«106345_j8005819040313_2_alg».proof.Proof.KernelArray
import proofs.«106345_j8005819040313_2_alg».proof.Proof.RefRow
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel, so this conjunct is stated as `True`. -/
theorem preserves : Cert.preserves_Kernel_KernelIdeal := trivial

/-- From memories that agree on the data and the centres, both programs end with their result buffer at
    `Soft.result` of those two arrays: the kernel by its run read block by block, the reference by its run read stage
    by stage. -/
theorem algebraic : Cert.algebraic_KernelIdeal_ReferenceIdeal := by
  intro m ρ m' ρ' _ hagree
  refine ⟨fun c => Cert.Soft.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v27_eq, Cert.ReferenceIdeal.Hand.ref_eq_result,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
